-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S3072x1024 .f32) (main_arg3 : FVec F S3072 .f32) (main_arg4 : FVec F S1024x1024 .f32) (main_arg5 : FVec F S1024x1024 .f32) (main_arg6 : FVec F S1024x1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_arg6 main_arg7 main_v13 main_v16
-- ==== Kernel.lean ====
abbrev S8192x1024 : Shape := ⟨2, ![8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S1x1024 : Shape := ⟨2, ![1, 1024]⟩
abbrev S256x1024 : Shape := ⟨2, ![256, 1024]⟩
abbrev S256x2048 : Shape := ⟨2, ![256, 2048]⟩

abbrev nBuf : Space → Nat
  | .hbm => 31
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024x2048, .f32⟩
  | .hbm, ⟨17, _⟩ => ⟨S1024x1024, .f32⟩
  | .hbm, ⟨18, _⟩ => ⟨S1024x1024, .f32⟩
  | .hbm, ⟨19, _⟩ => ⟨S1024x2048, .f32⟩
  | .hbm, ⟨20, _⟩ => ⟨S2048x2048, .f32⟩
  | .hbm, ⟨21, _⟩ => ⟨S2048x2048, .bf16⟩
  | .hbm, ⟨22, _⟩ => ⟨S2048, .f32⟩
  | .hbm, ⟨23, _⟩ => ⟨S1x2048, .f32⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2048x2048, .bf16⟩
  | .local _ .vmem, ⟨5, _⟩ => ⟨S1x2048, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  transposes_S1024x1024_S1024x1024_1_0 : S1024x1024.Transposes [1, 0] S1024x1024
  concatenates_S1024x1024_S1024x1024_S1024x2048_d1 : Shape.Concatenates [S1024x1024, S1024x1024] S1024x2048 1
  concatenates_S1024x2048_S1024x2048_S2048x2048_d0 : Shape.Concatenates [S1024x2048, S1024x2048] S2048x2048 0
  bitsLt_bf16_f32 : FTy.bits .bf16 < FTy.bits .f32
  concatenates_S1024_S1024_S2048_d0 : Shape.Concatenates [S1024, S1024] S2048 0
  shapeCasts_S2048_S1x2048 : S2048.ShapeCasts S1x2048
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x2048_S2048x2048_S256x2048_1_0_0_1_n_n_wf : DotDims.WF S256x2048 S2048x2048 S256x2048 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S8192x3072 : Shape := ⟨2, ![8192, 3072]⟩
abbrev S1x3072 : Shape := ⟨2, ![1, 3072]⟩
abbrev S1x1024 : Shape := ⟨2, ![1, 1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x3072, .f32⟩
  | .hbm, ⟨9, _⟩ => ⟨S8192x3072, .f32⟩
  | .hbm, ⟨10, _⟩ => ⟨S1x3072, .f32⟩
  | .hbm, ⟨11, _⟩ => ⟨S8192x3072, .f32⟩
  | .hbm, ⟨12, _⟩ => ⟨S8192x3072, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1024x1024, .f32⟩
  | .hbm, ⟨17, _⟩ => ⟨S8192x1024, .f32⟩
  | .hbm, ⟨18, _⟩ => ⟨S1024x1024, .f32⟩
  | .hbm, ⟨19, _⟩ => ⟨S8192x1024, .f32⟩
  | .hbm, ⟨20, _⟩ => ⟨S1024x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x3072_S8192x3072_1_0_0_1_n_n_wf : DotDims.WF S8192x1024 S1024x3072 S8192x3072 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.LibCat2.lean ====
/-
  Two equal pieces joined along one axis, read at an index, for any element type and any extents.
  Two matrices [n, w] laid side by side make a matrix [n, W] with W = 2·w: its column g·w + q (g the piece, q the
  column inside the piece) at row k is piece g at (k, q).  Two matrices [n, w] stacked make a matrix [N, w] with
  N = 2·n: its row g·n + q at column c is piece g at (q, c).  Two vectors [w] laid end to end make a vector [W]:
  its element g·w + q is piece g at q.  Each is the library's reading of a concatenation at an index, with the
  extents of the pieces before piece g summed to g·w (or g·n).
-/
import Idealize.ShloMosaic.Lib.Pipeline.Value
import Idealize.ShloMosaic.Lib.ValueIdx

open Idealize.ShloMosaic Idealize.ShloMosaic.ValueIdx

namespace Cat2

variable {α : Type}

/-- Two [n, w] matrices side by side: column `g·w + q` of row `k` is piece `g` at `(k, q)`. -/
theorem cat2_cols_apply {n w W : ℕ} (x0 x1 : (⟨2, ![n, w]⟩ : Shape).Idx → α)
    (h : Shape.Concatenates [(⟨2, ![n, w]⟩ : Shape), ⟨2, ![n, w]⟩] ⟨2, ![n, W]⟩ (1 : Fin 2))
    (g : Fin 2) (k : Fin n) (q : Fin w) (c : Fin W) (hc : c.val = g.val * w + q.val) :
    concatenate (⟨2, ![n, W]⟩ : Shape) (1 : Fin 2)
        [⟨(⟨2, ![n, w]⟩ : Shape), x0⟩, ⟨(⟨2, ![n, w]⟩ : Shape), x1⟩] h (ix2 k c)
      = (![x0, x1] g) (ix2 k q) := by
  refine concatenate_apply_piece (t := (⟨2, ![n, W]⟩ : Shape)) (1 : Fin 2)
    [⟨(⟨2, ![n, w]⟩ : Shape), x0⟩, ⟨(⟨2, ![n, w]⟩ : Shape), x1⟩] h (ix2 k c) g.val g.isLt (⟨2, ![n, w]⟩ : Shape) (![x0, x1] g) ?_ rfl
    (g.val * w) ?_ (ix2 k q) ?_ ?_
  · fin_cases g <;> rfl
  · fin_cases g <;> simp
  · intro b hb
    match b with
    | ⟨0, _⟩ => rfl
    | ⟨1, _⟩ => exact absurd rfl hb
  · show g.val * w + q.val = c.val
    omega

/-- Two [n, w] matrices stacked: row `g·n + q` at column `c` is piece `g` at `(q, c)`. -/
theorem cat2_rows_apply {n w N : ℕ} (x0 x1 : (⟨2, ![n, w]⟩ : Shape).Idx → α)
    (h : Shape.Concatenates [(⟨2, ![n, w]⟩ : Shape), ⟨2, ![n, w]⟩] ⟨2, ![N, w]⟩ (0 : Fin 2))
    (g : Fin 2) (q : Fin n) (c : Fin w) (r : Fin N) (hr : r.val = g.val * n + q.val) :
    concatenate (⟨2, ![N, w]⟩ : Shape) (0 : Fin 2)
        [⟨(⟨2, ![n, w]⟩ : Shape), x0⟩, ⟨(⟨2, ![n, w]⟩ : Shape), x1⟩] h (ix2 r c)
      = (![x0, x1] g) (ix2 q c) := by
  refine concatenate_apply_piece (t := (⟨2, ![N, w]⟩ : Shape)) (0 : Fin 2)
    [⟨(⟨2, ![n, w]⟩ : Shape), x0⟩, ⟨(⟨2, ![n, w]⟩ : Shape), x1⟩] h (ix2 r c) g.val g.isLt (⟨2, ![n, w]⟩ : Shape) (![x0, x1] g) ?_ rfl
    (g.val * n) ?_ (ix2 q c) ?_ ?_
  · fin_cases g <;> rfl
  · fin_cases g <;> simp
  · intro b hb
    match b with
    | ⟨0, _⟩ => exact absurd rfl hb
    | ⟨1, _⟩ => rfl
  · show g.val * n + q.val = r.val
    omega

/-- Two [w] vectors end to end: element `g·w + q` is piece `g` at `q`. -/
theorem cat2_vec_apply {w W : ℕ} (x0 x1 : (⟨1, ![w]⟩ : Shape).Idx → α)
    (h : Shape.Concatenates [(⟨1, ![w]⟩ : Shape), ⟨1, ![w]⟩] ⟨1, ![W]⟩ (0 : Fin 1))
    (g : Fin 2) (q : Fin w) (c : Fin W) (hc : c.val = g.val * w + q.val) :
    concatenate (⟨1, ![W]⟩ : Shape) (0 : Fin 1)
        [⟨(⟨1, ![w]⟩ : Shape), x0⟩, ⟨(⟨1, ![w]⟩ : Shape), x1⟩] h (ix1 c)
      = (![x0, x1] g) (ix1 q) := by
  refine concatenate_apply_piece (t := (⟨1, ![W]⟩ : Shape)) (0 : Fin 1)
    [⟨(⟨1, ![w]⟩ : Shape), x0⟩, ⟨(⟨1, ![w]⟩ : Shape), x1⟩] h (ix1 c) g.val g.isLt (⟨1, ![w]⟩ : Shape) (![x0, x1] g) ?_ rfl
    (g.val * w) ?_ (ix1 q) ?_ ?_
  · fin_cases g <;> rfl
  · fin_cases g <;> simp
  · intro b hb
    match b with
    | ⟨0, _⟩ => exact absurd rfl hb
  · show g.val * w + q.val = c.val
    omega

end Cat2
-- ==== Proof.SlabPieces.lean ====
/-
  The weight slab and the bias rows a fused cell is given, read at an index, for any element type.

  A [2048, 2048] slab made of four [1024, 1024] blocks — two laid side by side, twice, and the two strips stacked —
  reads, at row `g₀·1024 + k` and column `g₁·1024 + j`, block `(g₀, g₁)` at `(k, j)`.  A block that is a band of
  1024 rows cut from a [3072, 1024] matrix and transposed reads, at `(k, j)`, the matrix at row `o + j`, column `k`;
  a transposed square matrix reads, at `(k, j)`, the matrix at `(j, k)`.  A [1, 2048] row made of two 1024-slices of
  a [3072] vector laid end to end reads, at column `g·1024 + q`, slice `g` at `q`; a slice from `o` reads the vector
  at `o + q`.
-/
import proofs.«151031_j62027917689184_2_alg».proof.Proof.LibCat2
import Idealize.ShloMosaic.Lib.Pipeline.Value
import Idealize.ShloMosaic.Lib.ValueIdx
import Idealize.ShloMosaic.Lib.ValueLayout

open Idealize.ShloMosaic Idealize.ShloMosaic.ValueIdx

namespace SlabPieces

variable {α : Type}

/-- Four blocks as a 2 × 2 block matrix: entry `(g₀·1024 + k, g₁·1024 + j)` is block `(g₀, g₁)` at `(k, j)`. -/
theorem block2x2_at (A00 A01 A10 A11 : (⟨2, ![1024, 1024]⟩ : Shape).Idx → α)
    (hc1 : Shape.Concatenates [(⟨2, ![1024, 1024]⟩ : Shape), ⟨2, ![1024, 1024]⟩] ⟨2, ![1024, 2048]⟩ (1 : Fin 2))
    (hc0 : Shape.Concatenates [(⟨2, ![1024, 2048]⟩ : Shape), ⟨2, ![1024, 2048]⟩] ⟨2, ![2048, 2048]⟩ (0 : Fin 2))
    (g0 g1 : Fin 2) (k j : Fin 1024) (r c : Fin 2048) (hr : r.val = g0.val * 1024 + k.val) (hc : c.val = g1.val * 1024 + j.val) :
    concatenate (⟨2, ![2048, 2048]⟩ : Shape) (0 : Fin 2)
        [⟨(⟨2, ![1024, 2048]⟩ : Shape), concatenate (⟨2, ![1024, 2048]⟩ : Shape) (1 : Fin 2)
            [⟨(⟨2, ![1024, 1024]⟩ : Shape), A00⟩, ⟨(⟨2, ![1024, 1024]⟩ : Shape), A01⟩] hc1⟩,
         ⟨(⟨2, ![1024, 2048]⟩ : Shape), concatenate (⟨2, ![1024, 2048]⟩ : Shape) (1 : Fin 2)
            [⟨(⟨2, ![1024, 1024]⟩ : Shape), A10⟩, ⟨(⟨2, ![1024, 1024]⟩ : Shape), A11⟩] hc1⟩] hc0 (ix2 r c)
      = (![![A00, A01], ![A10, A11]] g0 g1) (ix2 k j) := by
  rw [Cat2.cat2_rows_apply _ _ hc0 g0 k c r hr]
  fin_cases g0
  · exact Cat2.cat2_cols_apply A00 A01 hc1 g1 k j c hc
  · exact Cat2.cat2_cols_apply A10 A11 hc1 g1 k j c hc

/-- A band of 1024 rows from row `o` of a [3072, 1024] matrix, transposed: entry `(k, j)` is the matrix at `(o + j, k)`. -/
theorem band_transposed_at (o : Nat) (w : (⟨2, ![3072, 1024]⟩ : Shape).Idx → α)
    (hsl : (⟨2, ![3072, 1024]⟩ : Shape).Slices ![o, 0] ⟨2, ![1024, 1024]⟩)
    (htr : (⟨2, ![1024, 1024]⟩ : Shape).Transposes [1, 0] ⟨2, ![1024, 1024]⟩)
    (k j : Fin 1024) (row : Fin 3072) (hrow : row.val = o + j.val) :
    transpose ⟨2, ![1024, 1024]⟩ [1, 0] (extractStridedSlice ⟨2, ![1024, 1024]⟩ ![o, 0] w hsl) htr (ix2 k j) = w (ix2 row k) := by
  rw [transpose_ix2_apply, slice2_axis0_apply o w hsl j k row hrow]

/-- A square matrix transposed: entry `(k, j)` is the matrix at `(j, k)`. -/
theorem square_transposed_at (u : (⟨2, ![1024, 1024]⟩ : Shape).Idx → α)
    (htr : (⟨2, ![1024, 1024]⟩ : Shape).Transposes [1, 0] ⟨2, ![1024, 1024]⟩) (k j : Fin 1024) :
    transpose ⟨2, ![1024, 1024]⟩ [1, 0] u htr (ix2 k j) = u (ix2 j k) :=
  transpose_ix2_apply u htr k j

/-- A vector cut from `o` reads, at `q`, the vector at `o + q`. -/
theorem slice1_apply {n mm : Nat} (o : Nat) (X : (⟨1, ![n]⟩ : Shape).Idx → α)
    (h : (⟨1, ![n]⟩ : Shape).Slices ![o] ⟨1, ![mm]⟩) (q : Fin mm) (k : Fin n) (hk : k.val = o + q.val) :
    extractStridedSlice ⟨1, ![mm]⟩ ![o] X h (ix1 q) = X (ix1 k) :=
  extractStridedSlice_apply _ _ _ _ _ (fun ax => by
    match ax with
    | ⟨0, _⟩ => exact hk)

/-- Two 1024-slices of a [3072] vector laid end to end and made a [1, 2048] row: column `g·1024 + q` is the vector at
    the slice's start plus `q`. -/
theorem two_slices_row_at (o0 o1 : Nat) (bi : (⟨1, ![3072]⟩ : Shape).Idx → α)
    (h0 : (⟨1, ![3072]⟩ : Shape).Slices ![o0] ⟨1, ![1024]⟩) (h1 : (⟨1, ![3072]⟩ : Shape).Slices ![o1] ⟨1, ![1024]⟩)
    (hc : Shape.Concatenates [(⟨1, ![1024]⟩ : Shape), ⟨1, ![1024]⟩] ⟨1, ![2048]⟩ (0 : Fin 1))
    (hs : (⟨1, ![2048]⟩ : Shape).ShapeCasts ⟨2, ![1, 2048]⟩)
    (g : Fin 2) (q : Fin 1024) (c : Fin 2048) (hcq : c.val = g.val * 1024 + q.val) (row : Fin 3072)
    (hrow : row.val = (![o0, o1] g) + q.val) (u : Fin 1) :
    shapeCast ⟨2, ![1, 2048]⟩ (concatenate (⟨1, ![2048]⟩ : Shape) (0 : Fin 1)
        [⟨(⟨1, ![1024]⟩ : Shape), extractStridedSlice ⟨1, ![1024]⟩ ![o0] bi h0⟩,
         ⟨(⟨1, ![1024]⟩ : Shape), extractStridedSlice ⟨1, ![1024]⟩ ![o1] bi h1⟩] hc) hs (ix2 u c)
      = bi (ix1 row) := by
  rw [shapeCast_a_1a_apply, Cat2.cat2_vec_apply _ _ hc g q c hcq]
  fin_cases g
  · exact slice1_apply o0 bi h0 q row hrow
  · exact slice1_apply o1 bi h1 q row hrow

/-- A 1024-slice of a [3072] vector made a [1, 1024] row: column `q` is the vector at `o + q`. -/
theorem slice_row_at (o : Nat) (bi : (⟨1, ![3072]⟩ : Shape).Idx → α)
    (h : (⟨1, ![3072]⟩ : Shape).Slices ![o] ⟨1, ![1024]⟩)
    (hs : (⟨1, ![1024]⟩ : Shape).ShapeCasts ⟨2, ![1, 1024]⟩) (q : Fin 1024) (row : Fin 3072) (hrow : row.val = o + q.val) (u : Fin 1) :
    shapeCast ⟨2, ![1, 1024]⟩ (extractStridedSlice ⟨1, ![1024]⟩ ![o] bi h) hs (ix2 u q) = bi (ix1 row) := by
  rw [shapeCast_a_1a_apply, slice1_apply o bi h q row hrow]

end SlabPieces
-- ==== Proof.GruSpec.lean ====
/-
  One step of a gated recurrent cell as ONE function of its eight argument arrays, index by index.

  The arrays: the input `x` and the state `h`, both [8192, 1024]; the stacked input weights `w` [3072, 1024]
  and their bias `bi` [3072], whose three bands of 1024 rows belong to the reset gate, the update gate and the
  candidate; the three state weights `ur`, `uz`, `un` [1024, 1024]; the candidate's state bias `bn` [1024].
  For batch row `b` and feature `j`, with `⟨a, c⟩ = Σ_k a(b, k) · c(j, k)` a row of `a` against a row of `c`:

      r   = σ(⟨x, w_r⟩ + bi_r(j) + ⟨h, ur⟩)
      z   = σ(⟨x, w_z⟩ + bi_z(j) + ⟨h, uz⟩)
      n   = tanh(⟨x, w_n⟩ + bi_n(j) + r · (⟨h, un⟩ + bn(j)))
      out = (1 − z) · n + z · h(b, j)

  over the extended reals, σ the logistic function `1 / (1 + e^(−y))` with its limits 0 and 1 at the infinities.
  Below it, the three laws that join two spellings of this cell: a sum over 2048 terms is the sum of its two
  halves; the logistic function spelled with a division, an exponential and a negation is the logistic
  function; and a bias may be added before or after a second summand (addition of extended reals is
  commutative and associative, so no finiteness is asked anywhere).
-/
import Idealize.ShloMosaic.PureOps.Ideal.Laws
import Idealize.ShloMosaic.Lib.ValueIdx
import Idealize.ShloMosaic.Lib.IdealHost

noncomputable section

open scoped BigOperators
open Idealize.ShloMosaic Idealize.ShloMosaic.ValueIdx

namespace GruCell

/-- Row `o + j` of the stacked input weights: row `j` of the band that starts at row `o`. -/
def bandRow (o : Nat) (ho : o + 1024 ≤ 3072) (j : Fin 1024) : Fin 3072 := ⟨o + j.val, by have := j.isLt; omega⟩

/-- The input's contribution to a gate: row `b` of `x` against row `j` of the band at `o`, plus that row's bias. -/
def inLogit (x : (⟨2, ![8192, 1024]⟩ : Shape).Idx → EReal) (w : (⟨2, ![3072, 1024]⟩ : Shape).Idx → EReal)
    (bi : (⟨1, ![3072]⟩ : Shape).Idx → EReal) (o : Nat) (ho : o + 1024 ≤ 3072) (b : Fin 8192) (j : Fin 1024) : EReal :=
  (∑ k : Fin 1024, x (ix2 b k) * w (ix2 (bandRow o ho j) k)) + bi (ix1 (bandRow o ho j))

/-- The state's contribution to a gate: row `b` of `h` against row `j` of the gate's state weights. -/
def stateDot (h : (⟨2, ![8192, 1024]⟩ : Shape).Idx → EReal) (u : (⟨2, ![1024, 1024]⟩ : Shape).Idx → EReal)
    (b : Fin 8192) (j : Fin 1024) : EReal :=
  ∑ k : Fin 1024, h (ix2 b k) * u (ix2 j k)

/-- The cell's output at batch row `b`, feature `j`. -/
def cellAt (x h : (⟨2, ![8192, 1024]⟩ : Shape).Idx → EReal) (w : (⟨2, ![3072, 1024]⟩ : Shape).Idx → EReal)
    (bi : (⟨1, ![3072]⟩ : Shape).Idx → EReal) (ur uz un : (⟨2, ![1024, 1024]⟩ : Shape).Idx → EReal)
    (bn : (⟨1, ![1024]⟩ : Shape).Idx → EReal) (b : Fin 8192) (j : Fin 1024) : EReal :=
  (1 - Ideal.logistic (inLogit x w bi 1024 (by omega) b j + stateDot h uz b j))
      * Ideal.tanh (inLogit x w bi 2048 (by omega) b j
          + Ideal.logistic (inLogit x w bi 0 (by omega) b j + stateDot h ur b j) * (stateDot h un b j + bn (ix1 j)))
    + Ideal.logistic (inLogit x w bi 1024 (by omega) b j + stateDot h uz b j) * h (ix2 b j)

/-- The cell's whole output array. -/
def cell (x h : (⟨2, ![8192, 1024]⟩ : Shape).Idx → EReal) (w : (⟨2, ![3072, 1024]⟩ : Shape).Idx → EReal)
    (bi : (⟨1, ![3072]⟩ : Shape).Idx → EReal) (ur uz un : (⟨2, ![1024, 1024]⟩ : Shape).Idx → EReal)
    (bn : (⟨1, ![1024]⟩ : Shape).Idx → EReal) : (⟨2, ![8192, 1024]⟩ : Shape).Idx → EReal :=
  fun i => cellAt x h w bi ur uz un bn (i 0) (i 1)

/-! ## The laws between two spellings -/

/-- A sum over 2048 terms is the sum over the first 1024 plus the sum over the last 1024. -/
theorem sum_two_halves {M : Type*} [AddCommMonoid M] (f : Fin 2048 → M) :
    ∑ k : Fin 2048, f k
      = (∑ k : Fin 1024, f ⟨k.val, by have := k.isLt; omega⟩) + ∑ k : Fin 1024, f ⟨1024 + k.val, by have := k.isLt; omega⟩ :=
  Fin.sum_univ_add (a := 1024) (b := 1024) f

/-- The logistic function spelled out — one over one plus the exponential of the negation, the ones the binary32
    pattern of one — is the logistic function, on every extended real. -/
theorem logistic_spelled (y : EReal) :
    Ideal.div (Ideal.ofBits .f32 0x3F800000#32) (Ideal.ofBits .f32 0x3F800000#32 + Ideal.exp (-y)) = Ideal.logistic y := by
  rw [Ideal.ofBits_one_f32]; rfl

/-- Two contributions summed and then a bias added, or the bias added to the first before the second. -/
theorem bias_regroup (a c β : EReal) : a + c + β = a + β + c := add_right_comm a c β

end GruCell

end
-- ==== Proof.HostSlabs.lean ====
/-
  What the kernel's six constant windows hold when the region is entered, as functions of the launched arguments.

  Before the call the host builds, from the stacked input weights `w`, their bias `bi` and the state weights:
  the [2048, 2048] slab whose upper half is `[w_rᵀ | w_zᵀ]` and lower half `[urᵀ | uzᵀ]`; the [1, 2048] row
  `[bi_r | bi_z]`; the candidate's `w_nᵀ` and `unᵀ`; and the rows `bi_n` and `bn`.  Read at an index, every entry is
  one entry of an argument: the slab at `(k, j)` of its upper-left block is `w` at row `j`, column `k`, and so on
  block by block (the transposes swap the two coordinates, the bands start at rows 0, 1024 and 2048).
-/
import proofs.«151031_j62027917689184_2_alg».proof.Proof.Gen.KernelIdeal.Frame
import proofs.«151031_j62027917689184_2_alg».proof.Proof.SlabPieces
import proofs.«151031_j62027917689184_2_alg».proof.Proof.GruSpec
import Idealize.ShloMosaic.Lib.StableHlo.Run
import Idealize.ShloMosaic.PureOps.Ideal.Laws

noncomputable section

open Idealize.ShloMosaic Idealize.ShloMosaic.TcCoe Idealize.SL.Sem Idealize.ShloMosaic.StableHlo Idealize.ShloMosaic.ValueIdx

namespace Cert.KernelIdeal.CellValue

open Cert.KernelIdeal GruCell

/-! ## The six arrays as terms of the arguments -/

/-- The fused slab: `[w_rᵀ | w_zᵀ]` over `[urᵀ | uzᵀ]`. -/
def slabRZ (w : FVec Ideal S3072x1024 .f32) (ur uz : FVec Ideal S1024x1024 .f32) : FVec Ideal S2048x2048 .bf16 :=
  truncf .bf16 (concatenate S2048x2048 0
    [⟨S1024x2048, concatenate S1024x2048 1
        [⟨S1024x1024, transpose S1024x1024 [1, 0] (extractStridedSlice S1024x1024 ![0, 0] w Gen.slices_S3072x1024_S1024x1024_0_0) Gen.transposes_S1024x1024_S1024x1024_1_0⟩,
         ⟨S1024x1024, transpose S1024x1024 [1, 0] (extractStridedSlice S1024x1024 ![1024, 0] w Gen.slices_S3072x1024_S1024x1024_1024_0) Gen.transposes_S1024x1024_S1024x1024_1_0⟩]
        Gen.concatenates_S1024x1024_S1024x1024_S1024x2048_d1⟩,
     ⟨S1024x2048, concatenate S1024x2048 1
        [⟨S1024x1024, transpose S1024x1024 [1, 0] ur Gen.transposes_S1024x1024_S1024x1024_1_0⟩,
         ⟨S1024x1024, transpose S1024x1024 [1, 0] uz Gen.transposes_S1024x1024_S1024x1024_1_0⟩]
        Gen.concatenates_S1024x1024_S1024x1024_S1024x2048_d1⟩]
    Gen.concatenates_S1024x2048_S1024x2048_S2048x2048_d0) Gen.bitsLt_bf16_f32

/-- The fused bias row `[bi_r | bi_z]`. -/
def biasRZ (bi : FVec Ideal S3072 .f32) : FVec Ideal S1x2048 .f32 :=
  shapeCast S1x2048 (concatenate S2048 0
    [⟨S1024, extractStridedSlice S1024 ![0] bi Gen.slices_S3072_S1024_0⟩,
     ⟨S1024, extractStridedSlice S1024 ![1024] bi Gen.slices_S3072_S1024_1024⟩]
    Gen.concatenates_S1024_S1024_S2048_d0) Gen.shapeCasts_S2048_S1x2048

/-- The candidate's input weights `w_nᵀ`. -/
def slabNX (w : FVec Ideal S3072x1024 .f32) : FVec Ideal S1024x1024 .bf16 :=
  truncf .bf16 (transpose S1024x1024 [1, 0] (extractStridedSlice S1024x1024 ![2048, 0] w Gen.slices_S3072x1024_S1024x1024_2048_0)
    Gen.transposes_S1024x1024_S1024x1024_1_0) Gen.bitsLt_bf16_f32

/-- The candidate's state weights `unᵀ`. -/
def slabNH (un : FVec Ideal S1024x1024 .f32) : FVec Ideal S1024x1024 .bf16 :=
  truncf .bf16 (transpose S1024x1024 [1, 0] un Gen.transposes_S1024x1024_S1024x1024_1_0) Gen.bitsLt_bf16_f32

/-- The candidate's input bias row `bi_n`. -/
def biasNX (bi : FVec Ideal S3072 .f32) : FVec Ideal S1x1024 .f32 :=
  shapeCast S1x1024 (extractStridedSlice S1024 ![2048] bi Gen.slices_S3072_S1024_2048) Gen.shapeCasts_S1024_S1x1024

/-- The candidate's state bias row `bn`. -/
def biasNH (bn : FVec Ideal S1024 .f32) : FVec Ideal S1x1024 .f32 :=
  shapeCast S1x1024 bn Gen.shapeCasts_S1024_S1x1024

/-! ## They are what the region finds -/

variable (m : (ℓ : Loc nD τ sig) → Buf (Elt Ideal) ℓ)

set_option maxHeartbeats 1000000 in
theorem V_slabRZ (c : Dev nD) : (Gen.V m c main_v13 : S2048x2048.Idx → EReal)
    = slabRZ (m ((c : Thread nD τ).loc main_arg2)) (m ((c : Thread nD τ).loc main_arg4)) (m ((c : Thread nD τ).loc main_arg5)) := by
  dsimp only [Gen.V, Gen.hostOps0]; after_results; rfl

set_option maxHeartbeats 1000000 in
theorem V_biasRZ (c : Dev nD) : (Gen.V m c main_v15 : S1x2048.Idx → EReal) = biasRZ (m ((c : Thread nD τ).loc main_arg3)) := by
  dsimp only [Gen.V, Gen.hostOps0]; after_results; rfl

set_option maxHeartbeats 1000000 in
theorem V_slabNX (c : Dev nD) : (Gen.V m c main_v17 : S1024x1024.Idx → EReal) = slabNX (m ((c : Thread nD τ).loc main_arg2)) := by
  dsimp only [Gen.V, Gen.hostOps0]; after_results; rfl

set_option maxHeartbeats 1000000 in
theorem V_slabNH (c : Dev nD) : (Gen.V m c main_v19 : S1024x1024.Idx → EReal) = slabNH (m ((c : Thread nD τ).loc main_arg6)) := by
  dsimp only [Gen.V, Gen.hostOps0]; after_results; rfl

set_option maxHeartbeats 1000000 in
theorem V_biasNX (c : Dev nD) : (Gen.V m c main_v20 : S1x1024.Idx → EReal) = biasNX (m ((c : Thread nD τ).loc main_arg3)) := by
  dsimp only [Gen.V, Gen.hostOps0]; after_results; rfl

set_option maxHeartbeats 1000000 in
theorem V_biasNH (c : Dev nD) : (Gen.V m c main_v21 : S1x1024.Idx → EReal) = biasNH (m ((c : Thread nD τ).loc main_arg7)) := by
  dsimp only [Gen.V, Gen.hostOps0]; after_results; rfl

/-! ## Read at an index -/

variable (w : FVec Ideal S3072x1024 .f32) (bi : FVec Ideal S3072 .f32) (ur uz un : FVec Ideal S1024x1024 .f32) (bn : FVec Ideal S1024 .f32)

/-- Upper-left block: the reset gate's input weights. -/
theorem slabRZ_xr (k j : Fin 1024) (r c : Fin 2048) (hr : r.val = k.val) (hc : c.val = j.val) :
    slabRZ w ur uz (ix2 r c) = w (ix2 (bandRow 0 (by omega) j) k) := by
  unfold slabRZ
  refine (SlabPieces.block2x2_at _ _ _ _ Gen.concatenates_S1024x1024_S1024x1024_S1024x2048_d1
      Gen.concatenates_S1024x2048_S1024x2048_S2048x2048_d0 0 0 k j r c
      (by show r.val = 0 * 1024 + k.val; omega) (by show c.val = 0 * 1024 + j.val; omega)).trans ?_
  exact SlabPieces.band_transposed_at 0 w Gen.slices_S3072x1024_S1024x1024_0_0 Gen.transposes_S1024x1024_S1024x1024_1_0 k j _ rfl

/-- Upper-right block: the update gate's input weights. -/
theorem slabRZ_xz (k j : Fin 1024) (r c : Fin 2048) (hr : r.val = k.val) (hc : c.val = 1024 + j.val) :
    slabRZ w ur uz (ix2 r c) = w (ix2 (bandRow 1024 (by omega) j) k) := by
  unfold slabRZ
  refine (SlabPieces.block2x2_at _ _ _ _ Gen.concatenates_S1024x1024_S1024x1024_S1024x2048_d1
      Gen.concatenates_S1024x2048_S1024x2048_S2048x2048_d0 0 1 k j r c
      (by show r.val = 0 * 1024 + k.val; omega) (by show c.val = 1 * 1024 + j.val; omega)).trans ?_
  exact SlabPieces.band_transposed_at 1024 w Gen.slices_S3072x1024_S1024x1024_1024_0 Gen.transposes_S1024x1024_S1024x1024_1_0 k j _ rfl

/-- Lower-left block: the reset gate's state weights. -/
theorem slabRZ_hr (k j : Fin 1024) (r c : Fin 2048) (hr : r.val = 1024 + k.val) (hc : c.val = j.val) :
    slabRZ w ur uz (ix2 r c) = ur (ix2 j k) :=
  (SlabPieces.block2x2_at _ _ _ _ Gen.concatenates_S1024x1024_S1024x1024_S1024x2048_d1
      Gen.concatenates_S1024x2048_S1024x2048_S2048x2048_d0 1 0 k j r c
      (by show r.val = 1 * 1024 + k.val; omega) (by show c.val = 0 * 1024 + j.val; omega)).trans
    (SlabPieces.square_transposed_at ur _ k j)

/-- Lower-right block: the update gate's state weights. -/
theorem slabRZ_hz (k j : Fin 1024) (r c : Fin 2048) (hr : r.val = 1024 + k.val) (hc : c.val = 1024 + j.val) :
    slabRZ w ur uz (ix2 r c) = uz (ix2 j k) :=
  (SlabPieces.block2x2_at _ _ _ _ Gen.concatenates_S1024x1024_S1024x1024_S1024x2048_d1
      Gen.concatenates_S1024x2048_S1024x2048_S2048x2048_d0 1 1 k j r c
      (by show r.val = 1 * 1024 + k.val; omega) (by show c.val = 1 * 1024 + j.val; omega)).trans
    (SlabPieces.square_transposed_at uz _ k j)

/-- The fused bias at a reset-gate column. -/
theorem biasRZ_r (j : Fin 1024) (c : Fin 2048) (hc : c.val = j.val) (u : Fin 1) :
    biasRZ bi (ix2 u c) = bi (ix1 (bandRow 0 (by omega) j)) :=
  SlabPieces.two_slices_row_at 0 1024 bi _ _ _ _ 0 j c (by show c.val = 0 * 1024 + j.val; omega) _ rfl u

/-- The fused bias at an update-gate column. -/
theorem biasRZ_z (j : Fin 1024) (c : Fin 2048) (hc : c.val = 1024 + j.val) (u : Fin 1) :
    biasRZ bi (ix2 u c) = bi (ix1 (bandRow 1024 (by omega) j)) :=
  SlabPieces.two_slices_row_at 0 1024 bi _ _ _ _ 1 j c (by show c.val = 1 * 1024 + j.val; omega) _ rfl u

theorem slabNX_at (k j : Fin 1024) : slabNX w (ix2 k j) = w (ix2 (bandRow 2048 (by omega) j) k) :=
  SlabPieces.band_transposed_at 2048 w Gen.slices_S3072x1024_S1024x1024_2048_0 Gen.transposes_S1024x1024_S1024x1024_1_0 k j _ rfl

theorem slabNH_at (k j : Fin 1024) : slabNH un (ix2 k j) = un (ix2 j k) :=
  SlabPieces.square_transposed_at un _ k j

theorem biasNX_at (j : Fin 1024) (u : Fin 1) : biasNX bi (ix2 u j) = bi (ix1 (bandRow 2048 (by omega) j)) :=
  SlabPieces.slice_row_at 2048 bi _ _ j _ rfl u

theorem biasNH_at (j : Fin 1024) (u : Fin 1) : biasNH bn (ix2 u j) = bn (ix1 j) :=
  shapeCast_a_1a_apply bn _ u j

end Cert.KernelIdeal.CellValue

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.BodyPieces.lean ====
/-
  The two kinds of matrix product in one tile of the cell, read at an index, at the ideal values.

  The fused gate logits: 256 rows of `x` and of `h` are laid side by side into a [256, 2048] tile and multiplied by a
  [2048, 2048] slab, then a [1, 2048] bias row is added to every row.  Entry `(p, c)` is the sum over the first
  1024 slab rows against `x`'s row `p`, plus the sum over the last 1024 slab rows against `h`'s row `p`, plus the
  bias at `c`: the side-by-side layout sends column `k < 1024` to `x` and column `1024 + k` to `h`.
  The candidate's two products: a [256, 1024] tile against a [1024, 1024] matrix plus a [1, 1024] bias row; entry
  `(p, q)` is the row against the matrix's column `q`, plus the bias at `q`.
  A change of float format is the identity on extended reals, and a cast of a shape to itself changes nothing.
-/
import proofs.«151031_j62027917689184_2_alg».proof.Proof.LibDotRows
import proofs.«151031_j62027917689184_2_alg».proof.Proof.LibCat2
import proofs.«151031_j62027917689184_2_alg».proof.Proof.GruSpec
import Idealize.ShloMosaic.Lib.Pipeline.Value
import Idealize.ShloMosaic.Lib.ValueLayout

noncomputable section

open scoped BigOperators
open Idealize.ShloMosaic Idealize.ShloMosaic.ValueIdx

namespace GruCell

/-- Entry `(p, c)` of `[x | h] · slab + bias`. -/
theorem fused_logit_at (d : DotDims ⟨2, ![256, 2048]⟩ ⟨2, ![2048, 2048]⟩ ⟨2, ![256, 2048]⟩) (prec : Option ContractPrecision)
    (hr : d.contr.rank = 1) (hs : d.contr.size ⟨0, by omega⟩ = 2048)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (hlt : FTy.bits .bf16 < FTy.bits .f32)
    (hcat : Shape.Concatenates [(⟨2, ![256, 1024]⟩ : Shape), ⟨2, ![256, 1024]⟩] ⟨2, ![256, 2048]⟩ (1 : Fin 2))
    (hsW : (⟨2, ![2048, 2048]⟩ : Shape).ShapeCasts ⟨2, ![2048, 2048]⟩)
    (hsb : (⟨2, ![1, 2048]⟩ : Shape).ShapeCasts ⟨2, ![1, 2048]⟩)
    (hbb : (⟨2, ![1, 2048]⟩ : Shape).Broadcasts ⟨2, ![256, 2048]⟩)
    (v0 v1 : FVec Ideal ⟨2, ![256, 1024]⟩ .f32) (W : FVec Ideal ⟨2, ![2048, 2048]⟩ .bf16)
    (β : FVec Ideal ⟨2, ![1, 2048]⟩ .f32) (p : Fin 256) (c : Fin 2048) :
    addf (matmul d prec
          (concatenate (⟨2, ![256, 2048]⟩ : Shape) (1 : Fin 2)
            [⟨(⟨2, ![256, 1024]⟩ : Shape), truncf .bf16 v0 hlt⟩, ⟨(⟨2, ![256, 1024]⟩ : Shape), truncf .bf16 v1 hlt⟩] hcat)
          (shapeCast ⟨2, ![2048, 2048]⟩ W hsW) (constant ⟨2, ![256, 2048]⟩ .f32 0x00000000#32))
        (broadcastTo ⟨2, ![256, 2048]⟩ (shapeCast ⟨2, ![1, 2048]⟩ β hsb) hbb) (ix2 p c)
      = (∑ k : Fin 1024, v0 (ix2 p k) * W (ix2 (⟨k.val, by have := k.isLt; omega⟩ : Fin 2048) c))
        + (∑ k : Fin 1024, v1 (ix2 p k) * W (ix2 (⟨1024 + k.val, by have := k.isLt; omega⟩ : Fin 2048) c))
        + β (ix2 (0 : Fin 1) c) := by
  show FloatOps.matmul d prec _ _ _ (ix2 p c) + broadcastTo _ _ hbb (ix2 p c) = _
  rw [matmul_zero_rows d prec hr hs h1 h2 h3 h4, broadcastTo_1b_ab_apply, shapeCast_self, shapeCast_self, sum_two_halves]
  refine congrArg₂ (· + ·) (congrArg₂ (· + ·) (Finset.sum_congr rfl fun k _ => ?_) (Finset.sum_congr rfl fun k _ => ?_)) rfl
  · exact congrArg (· * W (ix2 (⟨k.val, by have := k.isLt; omega⟩ : Fin 2048) c))
      (Cat2.cat2_cols_apply (truncf .bf16 v0 hlt) (truncf .bf16 v1 hlt) hcat 0 p k ⟨k.val, by have := k.isLt; omega⟩ (by simp))
  · exact congrArg (· * W (ix2 (⟨1024 + k.val, by have := k.isLt; omega⟩ : Fin 2048) c))
      (Cat2.cat2_cols_apply (truncf .bf16 v0 hlt) (truncf .bf16 v1 hlt) hcat 1 p k ⟨1024 + k.val, by have := k.isLt; omega⟩ (by simp))

/-- Entry `(p, q)` of `tile · matrix + bias`. -/
theorem biased_product_at (d : DotDims ⟨2, ![256, 1024]⟩ ⟨2, ![1024, 1024]⟩ ⟨2, ![256, 1024]⟩) (prec : Option ContractPrecision)
    (hr : d.contr.rank = 1) (hs : d.contr.size ⟨0, by omega⟩ = 1024)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (hlt : FTy.bits .bf16 < FTy.bits .f32)
    (hsW : (⟨2, ![1024, 1024]⟩ : Shape).ShapeCasts ⟨2, ![1024, 1024]⟩)
    (hsb : (⟨2, ![1, 1024]⟩ : Shape).ShapeCasts ⟨2, ![1, 1024]⟩)
    (hbb : (⟨2, ![1, 1024]⟩ : Shape).Broadcasts ⟨2, ![256, 1024]⟩)
    (v : FVec Ideal ⟨2, ![256, 1024]⟩ .f32) (W : FVec Ideal ⟨2, ![1024, 1024]⟩ .bf16)
    (β : FVec Ideal ⟨2, ![1, 1024]⟩ .f32) (p : Fin 256) (q : Fin 1024) :
    addf (matmul d prec (truncf .bf16 v hlt) (shapeCast ⟨2, ![1024, 1024]⟩ W hsW) (constant ⟨2, ![256, 1024]⟩ .f32 0x00000000#32))
        (broadcastTo ⟨2, ![256, 1024]⟩ (shapeCast ⟨2, ![1, 1024]⟩ β hsb) hbb) (ix2 p q)
      = (∑ k : Fin 1024, v (ix2 p k) * W (ix2 k q)) + β (ix2 (0 : Fin 1) q) := by
  show FloatOps.matmul d prec _ _ _ (ix2 p q) + broadcastTo _ _ hbb (ix2 p q) = _
  rw [matmul_zero_rows d prec hr hs h1 h2 h3 h4, broadcastTo_1b_ab_apply, shapeCast_self, shapeCast_self]
  rfl

end GruCell

end
-- ==== Proof.BodyAt.lean ====
/-
  What one grid point's body computes, entry by entry, from the blocks it loads.

  The body holds 256 rows of `x` and of `h` (tiles `v0`, `v1`), the fused slab `W` and bias row `β`, and the candidate's
  matrices and bias rows `Wx`, `βx`, `Wh`, `βh`.  With
      ℓ(c) = Σ_{k<1024} v0(p,k)·W(k,c) + Σ_{k<1024} v1(p,k)·W(1024+k,c) + β(c)
  the reset gate is σ(ℓ(q)), the update gate σ(ℓ(1024+q)) — the two halves of the fused tile's columns —, the
  candidate is tanh(v0(p,·)·Wx(·,q) + βx(q) + r·(v1(p,·)·Wh(·,q) + βh(q))), and the entry written is
  (1 − z)·n + z·v1(p,q).
-/
import proofs.«151031_j62027917689184_2_alg».proof.Proof.Gen.KernelIdeal.Skeleton
import proofs.«151031_j62027917689184_2_alg».proof.Proof.BodyPieces
import Idealize.ShloMosaic.Lib.IdealHost

noncomputable section

open scoped BigOperators
open Idealize.ShloMosaic Idealize.ShloMosaic.ValueIdx

namespace Cert.KernelIdeal.CellValue

open Cert.KernelIdeal GruCell

variable (v0 v1 : FVec Ideal S256x1024 .f32) (W : FVec Ideal S2048x2048 .bf16) (β : FVec Ideal S1x2048 .f32)
  (Wx : FVec Ideal S1024x1024 .bf16) (βx : FVec Ideal S1x1024 .f32) (Wh : FVec Ideal S1024x1024 .bf16) (βh : FVec Ideal S1x1024 .f32)

/-- The fused logit of tile row `p` at slab column `c`. -/
def fusedLogit (p : Fin 256) (c : Fin 2048) : EReal :=
  (∑ k : Fin 1024, v0 (ix2 p k) * W (ix2 (⟨k.val, by have := k.isLt; omega⟩ : Fin 2048) c))
    + (∑ k : Fin 1024, v1 (ix2 p k) * W (ix2 (⟨1024 + k.val, by have := k.isLt; omega⟩ : Fin 2048) c))
    + β (ix2 (0 : Fin 1) c)

/-- The entry the body writes at tile row `p`, feature `q`. -/
def tileAt (p : Fin 256) (q : Fin 1024) : EReal :=
  (1 - Ideal.logistic (fusedLogit v0 v1 W β p ⟨1024 + q.val, by have := q.isLt; omega⟩))
      * Ideal.tanh (((∑ k : Fin 1024, v0 (ix2 p k) * Wx (ix2 k q)) + βx (ix2 (0 : Fin 1) q))
          + Ideal.logistic (fusedLogit v0 v1 W β p ⟨q.val, by have := q.isLt; omega⟩)
            * ((∑ k : Fin 1024, v1 (ix2 p k) * Wh (ix2 k q)) + βh (ix2 (0 : Fin 1) q)))
    + Ideal.logistic (fusedLogit v0 v1 W β p ⟨1024 + q.val, by have := q.isLt; omega⟩) * v1 (ix2 p q)

/-- The fused tile `[x | h] · W + β`, as the body writes it. -/
def rzTile : FVec Ideal S256x2048 .f32 :=
  addf (matmul dot_S256x2048_S2048x2048_S256x2048_1_0_0_1_n_n none
      (concatenate S256x2048 1 [⟨S256x1024, truncf .bf16 v0 Gen.bitsLt_bf16_f32⟩, ⟨S256x1024, truncf .bf16 v1 Gen.bitsLt_bf16_f32⟩]
        Gen.concatenates_S256x1024_S256x1024_S256x2048_d1)
      (shapeCast S2048x2048 W Gen.shapeCasts_S2048x2048_S2048x2048) (constant S256x2048 .f32 0x00000000#32))
    (broadcastTo S256x2048 (shapeCast S1x2048 β Gen.shapeCasts_S1x2048_S1x2048) Gen.broadcasts_S1x2048_S256x2048)

/-- A candidate tile `v · M + b`, as the body writes it. -/
def candTile (v : FVec Ideal S256x1024 .f32) (M : FVec Ideal S1024x1024 .bf16) (b : FVec Ideal S1x1024 .f32) : FVec Ideal S256x1024 .f32 :=
  addf (matmul dot_S256x1024_S1024x1024_S256x1024_1_0_0_1_n_n none (truncf .bf16 v Gen.bitsLt_bf16_f32)
      (shapeCast S1024x1024 M Gen.shapeCasts_S1024x1024_S1024x1024) (constant S256x1024 .f32 0x00000000#32))
    (broadcastTo S256x1024 (shapeCast S1x1024 b Gen.shapeCasts_S1x1024_S1x1024) Gen.broadcasts_S1x1024_S256x1024)

/-- The body's payload is these tiles combined pointwise. -/
theorem pay_eq :
    Gen.k0_pay1 (F := Ideal) v0 v1 W β Wx βx Wh βh
      = addf (mulf (subf (broadcast S256x1024 (Scalar.ofBits .f32 0x3F800000#32))
                (logistic (extractStridedSlice S256x1024 ![0, 1024] (rzTile v0 v1 W β) Gen.slices_S256x2048_o0_1024_S256x1024)))
              (tanh (addf (candTile v0 Wx βx)
                (mulf (logistic (extractStridedSlice S256x1024 ![0, 0] (rzTile v0 v1 W β) Gen.slices_S256x2048_o0_0_S256x1024))
                  (candTile v1 Wh βh)))))
          (mulf (logistic (extractStridedSlice S256x1024 ![0, 1024] (rzTile v0 v1 W β) Gen.slices_S256x2048_o0_1024_S256x1024)) v1) := rfl

theorem rzTile_at (p : Fin 256) (c : Fin 2048) : rzTile v0 v1 W β (ix2 p c) = fusedLogit v0 v1 W β p c :=
  fused_logit_at dot_S256x2048_S2048x2048_S256x2048_1_0_0_1_n_n none rfl rfl (fun _ _ => rfl) (fun _ _ => rfl) (fun _ _ => rfl)
    (fun _ _ => rfl) _ _ _ _ _ v0 v1 W β p c

theorem candTile_at (v : FVec Ideal S256x1024 .f32) (M : FVec Ideal S1024x1024 .bf16) (b : FVec Ideal S1x1024 .f32)
    (p : Fin 256) (q : Fin 1024) :
    candTile v M b (ix2 p q) = (∑ k : Fin 1024, v (ix2 p k) * M (ix2 k q)) + b (ix2 (0 : Fin 1) q) :=
  biased_product_at dot_S256x1024_S1024x1024_S256x1024_1_0_0_1_n_n none rfl rfl (fun _ _ => rfl) (fun _ _ => rfl) (fun _ _ => rfl)
    (fun _ _ => rfl) _ _ _ _ v M b p q

/-- THE BODY'S PAYLOAD at tile row `p`, feature `q`. -/
theorem pay_at (p : Fin 256) (q : Fin 1024) :
    Gen.k0_pay1 (F := Ideal) v0 v1 W β Wx βx Wh βh (ix2 p q) = tileAt v0 v1 W β Wx βx Wh βh p q := by
  rw [pay_eq]
  show (Ideal.ofBits .f32 0x3F800000#32
          - Ideal.logistic (extractStridedSlice S256x1024 ![0, 1024] (rzTile v0 v1 W β) Gen.slices_S256x2048_o0_1024_S256x1024 (ix2 p q)))
        * Ideal.tanh (candTile v0 Wx βx (ix2 p q)
            + Ideal.logistic (extractStridedSlice S256x1024 ![0, 0] (rzTile v0 v1 W β) Gen.slices_S256x2048_o0_0_S256x1024 (ix2 p q))
              * candTile v1 Wh βh (ix2 p q))
      + Ideal.logistic (extractStridedSlice S256x1024 ![0, 1024] (rzTile v0 v1 W β) Gen.slices_S256x2048_o0_1024_S256x1024 (ix2 p q))
        * v1 (ix2 p q) = _
  rw [slice2_axis1_apply 1024 (rzTile v0 v1 W β) Gen.slices_S256x2048_o0_1024_S256x1024 p q ⟨1024 + q.val, by have := q.isLt; omega⟩ rfl,
    slice2_axis1_apply 0 (rzTile v0 v1 W β) Gen.slices_S256x2048_o0_0_S256x1024 p q ⟨q.val, by have := q.isLt; omega⟩ (Nat.zero_add _).symm,
    rzTile_at, rzTile_at, candTile_at, candTile_at, Ideal.ofBits_one_f32]
  rfl

end Cert.KernelIdeal.CellValue

end
-- ==== Proof.TileIsCell.lean ====
/-
  One tile of the kernel computes the cell.

  Let the tile's rows be rows `b(p)` of `x` and of `h`, and let the constant blocks be the slab and rows the host
  built from the arguments.  In the fused logit at a reset-gate column the first half of the sum meets the slab's
  upper-left block, `x`'s row against `w_r`'s row `j`; the second half meets the lower-left block, `h`'s row against
  `ur`'s row `j`; the bias is `bi_r(j)`.  So the kernel's logit is (input product + state product) + bias where the
  cell has (input product + bias) + state product: the same extended real, addition being commutative and
  associative.  The update gate is the same with the right-hand blocks; the candidate's two products meet
  `w_nᵀ` and `unᵀ` with their own bias rows, as in the cell.
-/
import proofs.«151031_j62027917689184_2_alg».proof.Proof.HostSlabs
import proofs.«151031_j62027917689184_2_alg».proof.Proof.BodyAt

noncomputable section

open scoped BigOperators
open Idealize.ShloMosaic Idealize.ShloMosaic.ValueIdx

namespace Cert.KernelIdeal.CellValue

open Cert.KernelIdeal GruCell

variable (x h : FVec Ideal S8192x1024 .f32) (w : FVec Ideal S3072x1024 .f32) (bi : FVec Ideal S3072 .f32)
  (ur uz un : FVec Ideal S1024x1024 .f32) (bn : FVec Ideal S1024 .f32)
  (v0 v1 : FVec Ideal S256x1024 .f32) (b : Fin 256 → Fin 8192)

/-- The fused logit at a reset-gate column is the reset gate's logit. -/
theorem fusedLogit_r (hv0 : ∀ p k, v0 (ix2 p k) = x (ix2 (b p) k)) (hv1 : ∀ p k, v1 (ix2 p k) = h (ix2 (b p) k))
    (p : Fin 256) (q : Fin 1024) (c : Fin 2048) (hc : c.val = q.val) :
    fusedLogit v0 v1 (slabRZ w ur uz) (biasRZ bi) p c = inLogit x w bi 0 (by omega) (b p) q + stateDot h ur (b p) q := by
  unfold fusedLogit inLogit stateDot
  rw [bias_regroup]
  refine congrArg₂ (· + ·) (congrArg₂ (· + ·) (Finset.sum_congr rfl fun k _ => ?_) (biasRZ_r bi q c hc 0))
    (Finset.sum_congr rfl fun k _ => ?_)
  · rw [hv0, slabRZ_xr w ur uz k q _ c rfl hc]
  · rw [hv1, slabRZ_hr w ur uz k q _ c rfl hc]

/-- The fused logit at an update-gate column is the update gate's logit. -/
theorem fusedLogit_z (hv0 : ∀ p k, v0 (ix2 p k) = x (ix2 (b p) k)) (hv1 : ∀ p k, v1 (ix2 p k) = h (ix2 (b p) k))
    (p : Fin 256) (q : Fin 1024) (c : Fin 2048) (hc : c.val = 1024 + q.val) :
    fusedLogit v0 v1 (slabRZ w ur uz) (biasRZ bi) p c = inLogit x w bi 1024 (by omega) (b p) q + stateDot h uz (b p) q := by
  unfold fusedLogit inLogit stateDot
  rw [bias_regroup]
  refine congrArg₂ (· + ·) (congrArg₂ (· + ·) (Finset.sum_congr rfl fun k _ => ?_) (biasRZ_z bi q c hc 0))
    (Finset.sum_congr rfl fun k _ => ?_)
  · rw [hv0, slabRZ_xz w ur uz k q _ c rfl hc]
  · rw [hv1, slabRZ_hz w ur uz k q _ c rfl hc]

/-- The candidate's input side. -/
theorem cand_in (hv0 : ∀ p k, v0 (ix2 p k) = x (ix2 (b p) k)) (p : Fin 256) (q : Fin 1024) :
    (∑ k : Fin 1024, v0 (ix2 p k) * slabNX w (ix2 k q)) + biasNX bi (ix2 (0 : Fin 1) q)
      = inLogit x w bi 2048 (by omega) (b p) q := by
  unfold inLogit
  refine congrArg₂ (· + ·) (Finset.sum_congr rfl fun k _ => ?_) (biasNX_at bi q 0)
  rw [hv0, slabNX_at]

/-- The candidate's state side. -/
theorem cand_state (hv1 : ∀ p k, v1 (ix2 p k) = h (ix2 (b p) k)) (p : Fin 256) (q : Fin 1024) :
    (∑ k : Fin 1024, v1 (ix2 p k) * slabNH un (ix2 k q)) + biasNH bn (ix2 (0 : Fin 1) q)
      = stateDot h un (b p) q + bn (ix1 q) := by
  unfold stateDot
  refine congrArg₂ (· + ·) (Finset.sum_congr rfl fun k _ => ?_) (biasNH_at bn q 0)
  rw [hv1, slabNH_at]

/-- THE TILE'S ENTRY `(p, q)` IS THE CELL at batch row `b(p)`, feature `q`. -/
theorem tileAt_eq_cellAt (hv0 : ∀ p k, v0 (ix2 p k) = x (ix2 (b p) k)) (hv1 : ∀ p k, v1 (ix2 p k) = h (ix2 (b p) k))
    (p : Fin 256) (q : Fin 1024) :
    tileAt v0 v1 (slabRZ w ur uz) (biasRZ bi) (slabNX w) (biasNX bi) (slabNH un) (biasNH bn) p q
      = cellAt x h w bi ur uz un bn (b p) q := by
  unfold tileAt cellAt
  rw [fusedLogit_z x h w bi ur uz v0 v1 b hv0 hv1 p q _ rfl, fusedLogit_r x h w bi ur uz v0 v1 b hv0 hv1 p q _ rfl,
    cand_in x w bi v0 b hv0 p q, cand_state h un bn v1 b hv1 p q, hv1 p q]

end Cert.KernelIdeal.CellValue

end
-- ==== Proof.CellBlocks.lean ====
/-
  From tiles to the whole array: after the run the kernel's result array is the cell of the launched arguments.

  The grid has 32 points.  At point `t` the windows of `x`, of `h` and of the result stage rows `256·t … 256·t + 255`
  (all 1024 columns), and the six constant windows stage their whole arrays (block index (0, 0), block = array).
  So what point `t` writes back — the body's payload of its blocks — is the cell at rows `256·t + p`: block `t` of
  the cell's array.  Every row `r` of the result lies in the block of point `r / 256`, so the 32 blocks cover the
  array and it ends equal to the cell everywhere.
-/
import proofs.«151031_j62027917689184_2_alg».proof.Proof.Gen.KernelIdeal.Value
import proofs.«151031_j62027917689184_2_alg».proof.Proof.TileIsCell
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.CellValue

open Cert.KernelIdeal Cert.KernelIdeal.Gen GruCell

variable (m : (ℓ : Loc nD τ sig) → Buf (Elt Ideal) ℓ) (ρ : Dev nD → PrngReg)

/-- The cell of the arguments as launched on core `c`. -/
def cellOf (c : Dev nD) : S8192x1024.Idx → EReal :=
  cell (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem zero_offsets : (![0, 0] : Fin 2 → Nat) = fun _ => 0 := funext fun a => by fin_cases a <;> rfl

/-- The moving windows' block index at point `t` is `(t, 0)`. -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

/-- The constant windows' block index is `(0, 0)` at every point. -/
theorem idx_const : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem point_lt (t : Fin cfg0.N) : t.val < 32 := lt_of_lt_of_eq t.isLt N_0

/-- The batch row of tile row `p` at point `t`. -/
def rowOf (t : Fin cfg0.N) (p : Fin 256) : Fin 8192 :=
  ⟨t.val * 256 + p.val, by have := point_lt t; have := p.isLt; omega⟩

/-! ## The blocks the body loads -/

theorem iblk0_at (c : Dev nD) (t : Fin cfg0.N) (p : Fin 256) (k : Fin 1024) :
    iblk m c 0 t (ix2 p k) = m ((c : Thread nD τ).loc main_arg0) (ix2 (rowOf t p) k) := by
  show V m c main_arg0 (((cfg0.win 0).blk t).view.emb (ix2 p k)) = _
  rw [V_main_arg0]
  refine congrArg _ (funext fun a => Fin.ext ?_)
  obtain ⟨e0, e1, -⟩ := idx_moving t
  match a with
  | ⟨0, _⟩ => show win0_0.index t (0 : Fin 2) * 256 + 1 * p.val = t.val * 256 + p.val; omega
  | ⟨1, _⟩ => show win0_0.index t (1 : Fin 2) * 1024 + 1 * k.val = k.val; omega

theorem iblk1_at (c : Dev nD) (t : Fin cfg0.N) (p : Fin 256) (k : Fin 1024) :
    iblk m c 1 t (ix2 p k) = m ((c : Thread nD τ).loc main_arg1) (ix2 (rowOf t p) k) := by
  show V m c main_arg1 (((cfg0.win 1).blk t).view.emb (ix2 p k)) = _
  rw [V_main_arg1]
  refine congrArg _ (funext fun a => Fin.ext ?_)
  obtain ⟨-, -, e0, e1, -⟩ := idx_moving t
  match a with
  | ⟨0, _⟩ => show win0_1.index t (0 : Fin 2) * 256 + 1 * p.val = t.val * 256 + p.val; omega
  | ⟨1, _⟩ => show win0_1.index t (1 : Fin 2) * 1024 + 1 * k.val = k.val; omega

theorem iblk2_eq (c : Dev nD) (t : Fin cfg0.N) : iblk m c 2 t = (V m c main_v13 : S2048x2048.Idx → EReal) := by
  funext y
  show V m c main_v13 (((cfg0.win 2).blk t).view.emb y) = V m c main_v13 y
  refine congrArg _ (funext fun a => Fin.ext ?_)
  obtain ⟨e0, e1, -⟩ := idx_const t
  match a with
  | ⟨0, _⟩ => show win0_2.index t (0 : Fin 2) * 2048 + 1 * (y 0).val = (y 0).val; omega
  | ⟨1, _⟩ => show win0_2.index t (1 : Fin 2) * 2048 + 1 * (y 1).val = (y 1).val; omega

theorem iblk3_eq (c : Dev nD) (t : Fin cfg0.N) : iblk m c 3 t = (V m c main_v15 : S1x2048.Idx → EReal) := by
  funext y
  show V m c main_v15 (((cfg0.win 3).blk t).view.emb y) = V m c main_v15 y
  refine congrArg _ (funext fun a => Fin.ext ?_)
  obtain ⟨-, -, e0, e1, -⟩ := idx_const t
  match a with
  | ⟨0, _⟩ => show win0_3.index t (0 : Fin 2) * 1 + 1 * (y 0).val = (y 0).val; omega
  | ⟨1, _⟩ => show win0_3.index t (1 : Fin 2) * 2048 + 1 * (y 1).val = (y 1).val; omega

theorem iblk4_eq (c : Dev nD) (t : Fin cfg0.N) : iblk m c 4 t = (V m c main_v17 : S1024x1024.Idx → EReal) := by
  funext y
  show V m c main_v17 (((cfg0.win 4).blk t).view.emb y) = V m c main_v17 y
  refine congrArg _ (funext fun a => Fin.ext ?_)
  obtain ⟨-, -, -, -, e0, e1, -⟩ := idx_const t
  match a with
  | ⟨0, _⟩ => show win0_4.index t (0 : Fin 2) * 1024 + 1 * (y 0).val = (y 0).val; omega
  | ⟨1, _⟩ => show win0_4.index t (1 : Fin 2) * 1024 + 1 * (y 1).val = (y 1).val; omega

theorem iblk5_eq (c : Dev nD) (t : Fin cfg0.N) : iblk m c 5 t = (V m c main_v19 : S1024x1024.Idx → EReal) := by
  funext y
  show V m c main_v19 (((cfg0.win 5).blk t).view.emb y) = V m c main_v19 y
  refine congrArg _ (funext fun a => Fin.ext ?_)
  obtain ⟨-, -, -, -, -, -, e0, e1, -⟩ := idx_const t
  match a with
  | ⟨0, _⟩ => show win0_5.index t (0 : Fin 2) * 1024 + 1 * (y 0).val = (y 0).val; omega
  | ⟨1, _⟩ => show win0_5.index t (1 : Fin 2) * 1024 + 1 * (y 1).val = (y 1).val; omega

theorem iblk6_eq (c : Dev nD) (t : Fin cfg0.N) : iblk m c 6 t = (V m c main_v20 : S1x1024.Idx → EReal) := by
  funext y
  show V m c main_v20 (((cfg0.win 6).blk t).view.emb y) = V m c main_v20 y
  refine congrArg _ (funext fun a => Fin.ext ?_)
  obtain ⟨-, -, -, -, -, -, -, -, e0, e1, -⟩ := idx_const t
  match a with
  | ⟨0, _⟩ => show win0_6.index t (0 : Fin 2) * 1 + 1 * (y 0).val = (y 0).val; omega
  | ⟨1, _⟩ => show win0_6.index t (1 : Fin 2) * 1024 + 1 * (y 1).val = (y 1).val; omega

theorem iblk7_eq (c : Dev nD) (t : Fin cfg0.N) : iblk m c 7 t = (V m c main_v21 : S1x1024.Idx → EReal) := by
  funext y
  show V m c main_v21 (((cfg0.win 7).blk t).view.emb y) = V m c main_v21 y
  refine congrArg _ (funext fun a => Fin.ext ?_)
  obtain ⟨-, -, -, -, -, -, -, -, -, -, e0, e1⟩ := idx_const t
  match a with
  | ⟨0, _⟩ => show win0_7.index t (0 : Fin 2) * 1 + 1 * (y 0).val = (y 0).val; omega
  | ⟨1, _⟩ => show win0_7.index t (1 : Fin 2) * 1024 + 1 * (y 1).val = (y 1).val; omega

/-! ## What a point writes back -/

/-- The body's payload of point `t`'s blocks, at tile entry `(p, q)`, is the cell at row `256·t + p`. -/
theorem point_value (c : Dev nD) (t : Fin cfg0.N) (p : Fin 256) (q : Fin 1024) :
    k0_pay1 (F := Ideal) (iblk m c 0 t) (iblk m c 1 t) (iblk m c 2 t) (iblk m c 3 t) (iblk m c 4 t) (iblk m c 6 t) (iblk m c 5 t) (iblk m c 7 t) (ix2 p q)
      = cellAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (rowOf t p) q := by
  rw [iblk2_eq, iblk3_eq, iblk4_eq, iblk5_eq, iblk6_eq, iblk7_eq, V_slabRZ, V_biasRZ, V_slabNX, V_slabNH, V_biasNX, V_biasNH]
  refine (pay_at (iblk m c 0 t) (iblk m c 1 t) _ _ _ _ _ _ p q).trans ?_
  exact tileAt_eq_cellAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (iblk m c 0 t) (iblk m c 1 t) (rowOf t)
    (fun p k => iblk0_at m c t p k) (fun p k => iblk1_at m c t p k) p q

/-- WHAT POINT `t` WRITES BACK is block `t` of the cell's array. -/
theorem flushed_eq (c : Dev nD) (t : Fin cfg0.N) :
    (dats m 0 c).flushed 8 t = ((cfg0.win 8).blk t).view.read (Elt Ideal) (cellOf m c) := by
  rw [Value.flushed8]
  unfold out0_8
  rw [View.canon_unit_zero zero_offsets]
  simp only [View.ld_unit_zero (S := S256x1024) zero_offsets, View.ld_unit_zero (S := S2048x2048) zero_offsets,
    View.ld_unit_zero (S := S1x2048) zero_offsets, View.ld_unit_zero (S := S1024x1024) zero_offsets,
    View.ld_unit_zero (S := S1x1024) zero_offsets]
  funext y
  obtain ⟨p, q, rfl⟩ : ∃ (p : Fin 256) (q : Fin 1024), y = ix2 p q := ⟨y 0, y 1, eq_ix2 y⟩
  show k0_pay1 (F := Ideal) (iblk m c 0 t) (iblk m c 1 t) (iblk m c 2 t) (iblk m c 3 t) (iblk m c 4 t) (iblk m c 6 t) (iblk m c 5 t) (iblk m c 7 t) (ix2 p q)
    = cellOf m c (((cfg0.win 8).blk t).view.emb (ix2 p q))
  rw [point_value m c t p q]
  unfold cellOf cell
  obtain ⟨-, -, -, -, e0, e1⟩ := idx_moving t
  refine congrArg₂ (cellAt _ _ _ _ _ _ _ _) (Fin.ext ?_) (Fin.ext ?_)
  · show t.val * 256 + p.val = win0_8.index t (0 : Fin 2) * 256 + 1 * p.val; omega
  · show q.val = win0_8.index t (1 : Fin 2) * 1024 + 1 * q.val; omega

/-! ## The cover, the array, the run -/

/-- An index of the array is in point `t`'s block iff each coordinate is in the block's range on its axis. -/
theorem mem_blk (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v22).slice (win0_8.rect t)).set ↔ _
  rw [View.set_slice_whole, Rect.mem_set_unit]
  exact Iff.rfl

/-- Every index of the result lies in the block of the point its row falls in. -/
theorem cover (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  let t : Fin cfg0.N := ⟨(i 0).val / 256, lt_of_lt_of_eq (show (i 0).val / 256 < 32 by omega) N_0.symm⟩
  refine ⟨t, flush0_8 t, ?_⟩
  rw [mem_blk]
  obtain ⟨-, -, -, -, e0, e1⟩ := idx_moving t
  have ht : t.val = (i 0).val / 256 := rfl
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

/-- THE RESULT ARRAY after the run is the cell of the launched arguments. -/
theorem final (c : Dev nD) : (dats m 0 c).arrAt 8 cfg0.N = cellOf m c :=
  (dats m 0 c).arrAt_eq_of_cover 8 (cellOf m c) (fun t _ => flushed_eq m c t) (cover)

/-- The kernel's run, read: the result at the cell of the arguments, the arguments unchanged. -/
theorem run : θ_run defs (onTc (τ := τ) (main (F := Ideal))) ⟨m, fun _ => 0, ρ⟩ fun r => ∀ c : Dev nD,
      r.2.mem ((c : Thread nD τ).loc main_v22) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.CellValue

end
-- ==== Proof.RefIsCell.lean ====
/-
  The reference program's result, read at an index, is the gated recurrent cell of GruSpec.lean.

  The reference multiplies `x` by the WHOLE stacked weight matrix transposed, adds the stacked bias, and cuts the
  [8192, 3072] result into three bands of 1024 columns; column `o + j` of that product at row `b` is row `b` of
  `x` against row `o + j` of the weights, plus bias `o + j` — the band's input logit.  The three state products
  are `h` against the transposed state weights, so entry `(b, j)` is row `b` of `h` against row `j` of the weights.
  The gates are written out as one over one plus the exponential of the negated logit, which is the logistic
  function on every extended real.
-/
import proofs.«151031_j62027917689184_2_alg».proof.Proof.Gen.ReferenceIdeal.Read
import proofs.«151031_j62027917689184_2_alg».proof.Proof.GruSpec
import Idealize.ShloMosaic.Lib.ValueIdx
import Idealize.ShloMosaic.PureOps.Ideal.Laws

noncomputable section

open scoped BigOperators
open Idealize.ShloMosaic Idealize.ShloMosaic.ValueIdx

namespace Cert.ReferenceIdeal.CellValue

open Cert.ReferenceIdeal Cert.ReferenceIdeal.Read GruCell

variable (x0 x1 : FVec Ideal S8192x1024 .f32) (x2 : FVec Ideal S3072x1024 .f32) (x3 : FVec Ideal S3072 .f32)
  (x4 x5 x6 : FVec Ideal S1024x1024 .f32) (x7 : FVec Ideal S1024 .f32)

/-- The biased input projection at row `b`, column `o + j`: the band's input logit. -/
theorem proj_band (o : Nat) (ho : o + 1024 ≤ 3072) (b : Fin 8192) (j : Fin 1024) :
    val_main_v4 (F := Ideal) x0 x2 x3 (ix2 b (bandRow o ho j)) = inLogit x0 x2 x3 o ho b j := by
  rw [val_main_v4_apply, val_main_v1_apply, val_main_v3_apply, val_main_v2_apply]
  simp only [val_main_v0_apply, Ideal.addf_def]
  unfold inLogit
  have el : ∀ k : Fin 1024, lidx_main_v1 (ix2 b (bandRow o ho j)) k = ix2 b k := fun k =>
    funext fun a => match a with | ⟨0, _⟩ => rfl | ⟨1, _⟩ => rfl
  have er : ∀ k : Fin 1024, idx_main_v0 (ridx_main_v1 (ix2 b (bandRow o ho j)) k) = ix2 (bandRow o ho j) k := fun k =>
    funext fun a => match a with | ⟨0, _⟩ => rfl | ⟨1, _⟩ => rfl
  have eb : idx_main_v2 (idx_main_v3 (ix2 b (bandRow o ho j))) = ix1 (bandRow o ho j) :=
    funext fun a => match a with | ⟨0, _⟩ => rfl
  simp only [el, er, eb]

/-- The three bands cut out of the projection. -/
theorem band0 (b : Fin 8192) (j : Fin 1024) :
    val_main_v5 (F := Ideal) x0 x2 x3 (ix2 b j) = inLogit x0 x2 x3 0 (by omega) b j := by
  rw [val_main_v5_apply, ← proj_band x0 x2 x3 0 (by omega) b j]
  exact congrArg _ (funext fun a => match a with
    | ⟨0, _⟩ => rfl
    | ⟨1, _⟩ => Fin.ext (Nat.zero_add _).symm)

theorem band1 (b : Fin 8192) (j : Fin 1024) :
    val_main_v6 (F := Ideal) x0 x2 x3 (ix2 b j) = inLogit x0 x2 x3 1024 (by omega) b j := by
  rw [val_main_v6_apply, ← proj_band x0 x2 x3 1024 (by omega) b j]
  exact congrArg _ (funext fun a => match a with
    | ⟨0, _⟩ => rfl
    | ⟨1, _⟩ => rfl)

theorem band2 (b : Fin 8192) (j : Fin 1024) :
    val_main_v7 (F := Ideal) x0 x2 x3 (ix2 b j) = inLogit x0 x2 x3 2048 (by omega) b j := by
  rw [val_main_v7_apply, ← proj_band x0 x2 x3 2048 (by omega) b j]
  exact congrArg _ (funext fun a => match a with
    | ⟨0, _⟩ => rfl
    | ⟨1, _⟩ => rfl)

/-- The three state products: row `b` of `h` against row `j` of the gate's state weights. -/
theorem state_r (b : Fin 8192) (j : Fin 1024) : val_main_v9 (F := Ideal) x1 x4 (ix2 b j) = stateDot x1 x4 b j := by
  rw [val_main_v9_apply]
  simp only [val_main_v8_apply]
  unfold stateDot
  refine Finset.sum_congr rfl fun k _ => ?_
  exact congrArg₂ (fun p q => x1 p * x4 q)
    (funext fun a => match a with | ⟨0, _⟩ => rfl | ⟨1, _⟩ => rfl)
    (funext fun a => match a with | ⟨0, _⟩ => rfl | ⟨1, _⟩ => rfl)

theorem state_z (b : Fin 8192) (j : Fin 1024) : val_main_v11 (F := Ideal) x1 x5 (ix2 b j) = stateDot x1 x5 b j := by
  rw [val_main_v11_apply]
  simp only [val_main_v10_apply]
  unfold stateDot
  refine Finset.sum_congr rfl fun k _ => ?_
  exact congrArg₂ (fun p q => x1 p * x5 q)
    (funext fun a => match a with | ⟨0, _⟩ => rfl | ⟨1, _⟩ => rfl)
    (funext fun a => match a with | ⟨0, _⟩ => rfl | ⟨1, _⟩ => rfl)

theorem state_n (b : Fin 8192) (j : Fin 1024) :
    val_main_v16 (F := Ideal) x1 x6 x7 (ix2 b j) = stateDot x1 x6 b j + x7 (ix1 j) := by
  rw [val_main_v16_apply, val_main_v13_apply, val_main_v15_apply, val_main_v14_apply]
  simp only [val_main_v12_apply, Ideal.addf_def]
  unfold stateDot
  refine congrArg₂ (· + ·) (Finset.sum_congr rfl fun k _ => ?_) (congrArg x7 (funext fun a => match a with | ⟨0, _⟩ => rfl))
  exact congrArg₂ (fun p q => x1 p * x6 q)
    (funext fun a => match a with | ⟨0, _⟩ => rfl | ⟨1, _⟩ => rfl)
    (funext fun a => match a with | ⟨0, _⟩ => rfl | ⟨1, _⟩ => rfl)

/-- The reset gate, written out, is the logistic function of its logit. -/
theorem gate_r (b : Fin 8192) (j : Fin 1024) :
    val_main_v23 (F := Ideal) x0 x1 x2 x3 x4 (ix2 b j)
      = Ideal.logistic (inLogit x0 x2 x3 0 (by omega) b j + stateDot x1 x4 b j) := by
  rw [val_main_v23_apply, val_main_v22_apply, val_main_cst_0_apply, val_main_v21_apply, val_main_v20_apply,
    val_main_cst_apply, val_main_v19_apply, val_main_v18_apply, val_main_v17_apply, band0, state_r]
  simp only [Ideal.hostDivf_def, Ideal.addf_def, Ideal.hostUnary_exp_def, Ideal.hostNegf_def, Ideal.negf_def, Ideal.ofBits_def]
  exact logistic_spelled _

/-- The update gate, written out, is the logistic function of its logit. -/
theorem gate_z (b : Fin 8192) (j : Fin 1024) :
    val_main_v30 (F := Ideal) x0 x1 x2 x3 x5 (ix2 b j)
      = Ideal.logistic (inLogit x0 x2 x3 1024 (by omega) b j + stateDot x1 x5 b j) := by
  rw [val_main_v30_apply, val_main_v29_apply, val_main_cst_2_apply, val_main_v28_apply, val_main_v27_apply,
    val_main_cst_1_apply, val_main_v26_apply, val_main_v25_apply, val_main_v24_apply, band1, state_z]
  simp only [Ideal.hostDivf_def, Ideal.addf_def, Ideal.hostUnary_exp_def, Ideal.hostNegf_def, Ideal.negf_def, Ideal.ofBits_def]
  exact logistic_spelled _

/-- THE REFERENCE'S RESULT is the cell of its eight arguments. -/
theorem result_eq :
    val_main_v38 (F := Ideal) x0 x1 x2 x3 x4 x5 x6 x7 = cell x0 x1 x2 x3 x4 x5 x6 x7 := by
  funext i
  obtain ⟨b, j, rfl⟩ : ∃ (b : Fin 8192) (j : Fin 1024), i = ix2 b j := ⟨i 0, i 1, eq_ix2 i⟩
  rw [val_main_v38_apply, val_main_v36_apply, val_main_v37_apply, val_main_v35_apply, val_main_v34_apply,
    val_main_cst_3_apply, val_main_v33_apply, val_main_v32_apply, val_main_v31_apply, band2, state_n, gate_r, gate_z]
  simp only [Ideal.addf_def, Ideal.mulf_def, Ideal.subf_def, Ideal.hostUnary_tanh_def, Ideal.ofBits_def, Ideal.ofBits_one_f32]
  rfl

end Cert.ReferenceIdeal.CellValue

end
-- ==== Proof.lean ====
/-
  A gated recurrent cell: one fused kernel against the plain formula, equal over the extended reals.

  Both programs compute, for batch row `b` and feature `j`,
      r = σ(x_b·w_r,j + bi_r,j + h_b·ur_j),   z = σ(x_b·w_z,j + bi_z,j + h_b·uz_j),
      n = tanh(x_b·w_n,j + bi_n,j + r·(h_b·un_j + bn_j)),   out = (1 − z)·n + z·h_b,j.
  The reference multiplies `x` by the whole stacked weight matrix, adds the stacked bias, cuts the three bands, and
  writes σ as one over one plus the exponential of the negated logit.  The kernel walks 32 tiles of 256 batch rows;
  in each it lays the rows of `x` and `h` side by side and multiplies them by one [2048, 2048] slab the host built
  from `w_r, w_z, ur, uz` (so the input and state products of the two gates are ONE sum over 2048 terms), adds the
  bias row `[bi_r | bi_z]`, and applies the logistic function to the two halves of the columns; the candidate keeps
  its two products apart because only the state side is scaled by `r`.
  What joins the two: a sum over 2048 terms is the sum of its two halves; (a + c) + β = (a + β) + c; the logistic
  function written out is the logistic function at every extended real, the infinities included; a change of float
  format is the identity on extended reals.  None of these asks an input to be finite, so the precondition is
  never opened.  The kernel's result array is assembled from the 32 blocks, which tile it.
  The three frames are the generated runs; nothing was rewritten in the idealization, so `preserves` is `True`.
-/
import proofs.«151031_j62027917689184_2_alg».proof.Defs
import proofs.«151031_j62027917689184_2_alg».proof.Proof.Gen.Kernel
import proofs.«151031_j62027917689184_2_alg».proof.Proof.Gen.Kernel.Frame
import proofs.«151031_j62027917689184_2_alg».proof.Proof.Gen.KernelIdeal
import proofs.«151031_j62027917689184_2_alg».proof.Proof.Gen.KernelIdeal.Frame
import proofs.«151031_j62027917689184_2_alg».proof.Proof.Gen.KernelIdeal.Value
import proofs.«151031_j62027917689184_2_alg».proof.Proof.Gen.ReferenceIdeal
import proofs.«151031_j62027917689184_2_alg».proof.Proof.Gen.ReferenceIdeal.Run
import proofs.«151031_j62027917689184_2_alg».proof.Proof.Gen.ReferenceIdeal.Read
import proofs.«151031_j62027917689184_2_alg».proof.Proof.Gen.Pre_finite_inputs
import proofs.«151031_j62027917689184_2_alg».proof.Proof.CellBlocks
import proofs.«151031_j62027917689184_2_alg».proof.Proof.RefIsCell
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the eight arguments, the kernel's result array ends at the cell of its arguments (the 32
    blocks assembled) and the reference's at its composed term, which read at an index is the same cell. -/
theorem algebraic : Cert.algebraic_KernelIdeal_ReferenceIdeal := by
  intro m ρ m' ρ' _ hagree
  refine ⟨fun c => Cert.KernelIdeal.CellValue.cellOf m c, Cert.KernelIdeal.CellValue.run m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6, h7⟩ := hagree c
  rw [(h c).1, Cert.ReferenceIdeal.Read.val_main_v38_eq, Cert.ReferenceIdeal.CellValue.result_eq, h0, h1, h2, h3, h4, h5, h6, h7]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
